-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S6144x2048 : Shape := ⟨2, ![6144, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S6144x2048 : S_.BroadcastsInDim S6144x2048 (![] : Fin 0 → Fin S6144x2048.rank)
  reducesTo_S6144x2048_S_d0_1 : S6144x2048.ReducesTo [0, 1] S_

variable [Facts]

def fn {F : FTy → Type} [FloatOps F] (main_arg0 : FVec F S4x4096x2048 .f32) (main_arg1 : FVec F S6144x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S6144x2048 .f32 := Host.absf main_arg1
  let main_cst_0 : FVec F S_ .f32 := constant S_ .f32 0x7F800000#32
  let main_v5 : FVec F S6144x2048 .f32 := broadcastInDim S6144x2048 ![] bcast_S_S6144x2048 main_cst_0
  let main_v6 : IVec S6144x2048 1 := cmpf .olt main_v4 main_v5
  let main_c_1 : IVec S_ 1 := constantI S_ 1 1#1
  let main_v7 : IVec S_ 1 := (fun x v => Host.reduce IntOp.andi x v reducesTo_S6144x2048_S_d0_1 h_S_) main_v6 main_c_1
  let main_v8 : IVec S_ 1 := andi main_v3 main_v7
  main_v8
-- ==== Kernel.lean ====
abbrev S4x4096x2048 : Shape := ⟨3, ![4, 4096, 2048]⟩
abbrev S6144x2048 : Shape := ⟨2, ![6144, 2048]⟩
abbrev S16384x2048 : Shape := ⟨2, ![16384, 2048]⟩
abbrev S3x4x16x4096x128 : Shape := ⟨5, ![3, 4, 16, 4096, 128]⟩
abbrev S512x2048 : Shape := ⟨2, ![512, 2048]⟩
abbrev S2048x2048 : Shape := ⟨2, ![2048, 2048]⟩
abbrev S1x1x16x512x128 : Shape := ⟨5, ![1, 1, 16, 512, 128]⟩
abbrev S512x16x128 : Shape := ⟨3, ![512, 16, 128]⟩
abbrev S16x512x128 : Shape := ⟨3, ![16, 512, 128]⟩
abbrev S1x4x16x4096x128 : Shape := ⟨5, ![1, 4, 16, 4096, 128]⟩
abbrev S4x16x4096x128 : Shape := ⟨4, ![4, 16, 4096, 128]⟩

abbrev nBuf : Space → Nat
  | .hbm => 12
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S6144x2048, .f32⟩
  | .hbm, ⟨2, _⟩ => ⟨S16384x2048, .f32⟩
  | .hbm, ⟨3, _⟩ => ⟨S16384x2048, .bf16⟩
  | .hbm, ⟨4, _⟩ => ⟨S6144x2048, .bf16⟩
  | .hbm, ⟨5, _⟩ => ⟨S3x4x16x4096x128, .f32⟩
  | .hbm, ⟨6, _⟩ => ⟨S1x4x16x4096x128, .f32⟩
  | .hbm, ⟨7, _⟩ => ⟨S4x16x4096x128, .f32⟩
  | .hbm, ⟨8, _⟩ => ⟨S1x4x16x4096x128, .f32⟩
  | .hbm, ⟨9, _⟩ => ⟨S4x16x4096x128, .f32⟩
  | .hbm, ⟨10, _⟩ => ⟨S1x4x16x4096x128, .f32⟩
  | .hbm, ⟨11, _⟩ => ⟨S4x16x4096x128, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x1x16x512x128, .f32⟩
  | .local _ .vmem, ⟨5, _⟩ => ⟨S1x1x16x512x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, v16.toNat, c0_i32_10.toNat, v26.toNat, c0_i32_11.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x16x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x4096x2048_S16384x2048 : S4x4096x2048.ShapeCasts S16384x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S512x2048_S512x16x128 : S512x2048.ShapeCasts S512x16x128
  transposes_S512x16x128_p1_0_2_S16x512x128 : S512x16x128.Transposes [1, 0, 2] S16x512x128
  shapeCasts_S16x512x128_S1x1x16x512x128 : S16x512x128.ShapeCasts S1x1x16x512x128
  inb_S1x1x16x512x128_S1x1x16x512x128_0_0_0_0_0 : ∀ a, (![0, 0, 0, 0, 0] : Fin 5 → Nat) a + S1x1x16x512x128.size a ≤ S1x1x16x512x128.size a
  h_S1x1x16x512x128 : 0 < S1x1x16x512x128.numel
  slices_S3x4x16x4096x128_S1x4x16x4096x128_0_0_0_0_0 : S3x4x16x4096x128.Slices ![0, 0, 0, 0, 0] S1x4x16x4096x128
  shapeCasts_S1x4x16x4096x128_S4x16x4096x128 : S1x4x16x4096x128.ShapeCasts S4x16x4096x128
  slices_S3x4x16x4096x128_S1x4x16x4096x128_1_0_0_0_0 : S3x4x16x4096x128.Slices ![1, 0, 0, 0, 0] S1x4x16x4096x128
  slices_S3x4x16x4096x128_S1x4x16x4096x128_2_0_0_0_0 : S3x4x16x4096x128.Slices ![2, 0, 0, 0, 0] S1x4x16x4096x128
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .bf16 = 32 ∨ (Rect.block (s := S16384x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S6144x2048.size a
  hwx0_1 : ∀ i : grid0.Coords, EltTy.bits .bf16 = 32 ∨ (Rect.block (s := S6144x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x16x512x128.size a ≤ S3x4x16x4096x128.size a
  hwx0_2 : ∀ i : grid0.Coords, EltTy.bits .f32 = 32 ∨ (Rect.block (s := S3x4x16x4096x128) S1x1x16x512x128.size (cc0_transform_2 i) (hinb0_2 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x16x512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S6144x2048 : Shape := ⟨2, ![6144, 2048]⟩
abbrev S4x4096x6144 : Shape := ⟨3, ![4, 4096, 6144]⟩
abbrev S4x4096x16x128 : Shape := ⟨4, ![4, 4096, 16, 128]⟩
abbrev S4x16x4096x128 : Shape := ⟨4, ![4, 16, 4096, 128]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S6144x2048, .f32⟩
  | .hbm, ⟨2, _⟩ => ⟨S4x4096x6144, .f32⟩
  | .hbm, ⟨3, _⟩ => ⟨S4x4096x2048, .f32⟩
  | .hbm, ⟨4, _⟩ => ⟨S4x4096x2048, .f32⟩
  | .hbm, ⟨5, _⟩ => ⟨S4x4096x2048, .f32⟩
  | .hbm, ⟨6, _⟩ => ⟨S4x4096x16x128, .f32⟩
  | .hbm, ⟨7, _⟩ => ⟨S4x16x4096x128, .f32⟩
  | .hbm, ⟨8, _⟩ => ⟨S4x4096x16x128, .f32⟩
  | .hbm, ⟨9, _⟩ => ⟨S4x16x4096x128, .f32⟩
  | .hbm, ⟨10, _⟩ => ⟨S4x4096x16x128, .f32⟩
  | .hbm, ⟨11, _⟩ => ⟨S4x16x4096x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]

class Facts₀ : Prop where
  slices_S4x4096x6144_S4x4096x2048_0_0_0 : S4x4096x6144.Slices ![0, 0, 0] S4x4096x2048
  slices_S4x4096x6144_S4x4096x2048_0_0_2048 : S4x4096x6144.Slices ![0, 0, 2048] S4x4096x2048
  slices_S4x4096x6144_S4x4096x2048_0_0_4096 : S4x4096x6144.Slices ![0, 0, 4096] S4x4096x2048
  shapeCasts_S4x4096x2048_S4x4096x16x128 : S4x4096x2048.ShapeCasts S4x4096x16x128
  transposes_S4x4096x16x128_S4x16x4096x128_0_2_1_3 : S4x4096x16x128.Transposes [0, 2, 1, 3] S4x16x4096x128
  dot_S4x4096x2048_S6144x2048_S4x4096x6144_2_1_01_0_n_n_wf : DotDims.WF S4x4096x2048 S6144x2048 S4x4096x6144 [2] [1] [0, 1] [0] [] []

variable [Facts₀]

def dot_S4x4096x2048_S6144x2048_S4x4096x6144_2_1_01_0_n_n : DotDims S4x4096x2048 S6144x2048 S4x4096x6144 where
  lhsContracting := [2]
  rhsContracting := [1]
  lhsNonContracting := [0, 1]
  rhsNonContracting := [0]
  lhsBatch := []
  rhsBatch := []
  wf := dot_S4x4096x2048_S6144x2048_S4x4096x6144_2_1_01_0_n_n_wf

class Facts : Prop extends Facts₀ where

variable [Facts]
-- ==== Proof.QkvSpec.lean ====
/-
  The fused query/key/value projection as ONE function of the two argument arrays.

  The input `x` has shape [4, 4096, 2048] (batch, position, feature) and the weight `W` has shape [6144, 2048]
  (output feature, input feature), the three projections stacked along its rows: row `j * 2048 + h * 128 + d` is
  segment `j` (query, key or value), head `h`, head coordinate `d`. The projected value of segment `j` at batch `b`,
  head `h`, position `s`, coordinate `d` is the inner product over the 2048 input features

      proj x W j b h s d = ∑ k, x (b, s, k) * W (j * 2048 + h * 128 + d, k).

  `stacked` is this value laid out as [3, 4, 16, 4096, 128] and `heads j` is its segment `j` as [4, 16, 4096, 128].
  `projRows` is the same sum read off the input with batch and position flattened into one row index
  `b * 4096 + s` of a [16384, 2048] matrix; the two agree when the matrix is that flattening of `x`.
-/
import Idealize.ShloMosaic.Lib.ValueIdx

noncomputable section

open scoped BigOperators

namespace Cert.Qkv

open Idealize.ShloMosaic Idealize.ShloMosaic.ValueIdx

/-- Row of the stacked weight for segment `j`, head `h`, head coordinate `d`. -/
def wrow (j : Fin 3) (h : Fin 16) (d : Fin 128) : Fin 6144 :=
  ⟨j.val * 2048 + h.val * 128 + d.val, by have := j.isLt; have := h.isLt; have := d.isLt; omega⟩

/-- Row of the flattened input for batch `b`, position `s`. -/
def xrow (b : Fin 4) (s : Fin 4096) : Fin 16384 :=
  ⟨b.val * 4096 + s.val, by have := b.isLt; have := s.isLt; omega⟩

theorem wrow_val (j : Fin 3) (h : Fin 16) (d : Fin 128) : (wrow j h d).val = j.val * 2048 + h.val * 128 + d.val := rfl
theorem xrow_val (b : Fin 4) (s : Fin 4096) : (xrow b s).val = b.val * 4096 + s.val := rfl

/-- The projected value: the inner product of input row (b, s) with weight row `wrow j h d`. -/
def proj (x : (⟨3, ![4, 4096, 2048]⟩ : Shape).Idx → EReal) (W : (⟨2, ![6144, 2048]⟩ : Shape).Idx → EReal)
    (j : Fin 3) (b : Fin 4) (h : Fin 16) (s : Fin 4096) (d : Fin 128) : EReal :=
  ∑ k : Fin 2048, x (ix3 b s k) * W (ix2 (wrow j h d) k)

/-- The same inner product off the input flattened to [16384, 2048]. -/
def projRows (X : (⟨2, ![16384, 2048]⟩ : Shape).Idx → EReal) (W : (⟨2, ![6144, 2048]⟩ : Shape).Idx → EReal)
    (j : Fin 3) (b : Fin 4) (h : Fin 16) (s : Fin 4096) (d : Fin 128) : EReal :=
  ∑ k : Fin 2048, X (ix2 (xrow b s) k) * W (ix2 (wrow j h d) k)

/-- When the matrix is the flattening of `x`, the two inner products are the same sum. -/
theorem projRows_eq_proj (X : (⟨2, ![16384, 2048]⟩ : Shape).Idx → EReal) (x : (⟨3, ![4, 4096, 2048]⟩ : Shape).Idx → EReal)
    (W : (⟨2, ![6144, 2048]⟩ : Shape).Idx → EReal) (hX : ∀ (b : Fin 4) (s : Fin 4096) (k : Fin 2048), X (ix2 (xrow b s) k) = x (ix3 b s k))
    (j : Fin 3) (b : Fin 4) (h : Fin 16) (s : Fin 4096) (d : Fin 128) : projRows X W j b h s d = proj x W j b h s d := by
  unfold projRows proj
  exact Finset.sum_congr rfl fun k _ => by rw [hX b s k]

/-- All three segments, laid out [3, 4, 16, 4096, 128]. -/
def stackedRows (X : (⟨2, ![16384, 2048]⟩ : Shape).Idx → EReal) (W : (⟨2, ![6144, 2048]⟩ : Shape).Idx → EReal) :
    (⟨5, ![3, 4, 16, 4096, 128]⟩ : Shape).Idx → EReal :=
  fun i => projRows X W (i 0) (i 1) (i 2) (i 3) (i 4)

/-- Segment `j`, laid out [4, 16, 4096, 128]: batch, head, position, head coordinate. -/
def heads (j : Fin 3) (x : (⟨3, ![4, 4096, 2048]⟩ : Shape).Idx → EReal) (W : (⟨2, ![6144, 2048]⟩ : Shape).Idx → EReal) :
    (⟨4, ![4, 16, 4096, 128]⟩ : Shape).Idx → EReal :=
  fun i => proj x W j (i 0) (i 1) (i 2) (i 3)

theorem stackedRows_ix5 (X : (⟨2, ![16384, 2048]⟩ : Shape).Idx → EReal) (W : (⟨2, ![6144, 2048]⟩ : Shape).Idx → EReal)
    (j : Fin 3) (b : Fin 4) (h : Fin 16) (s : Fin 4096) (d : Fin 128) :
    stackedRows X W (ix5 j b h s d) = projRows X W j b h s d := rfl

theorem heads_ix4 (j : Fin 3) (x : (⟨3, ![4, 4096, 2048]⟩ : Shape).Idx → EReal) (W : (⟨2, ![6144, 2048]⟩ : Shape).Idx → EReal)
    (b : Fin 4) (h : Fin 16) (s : Fin 4096) (d : Fin 128) :
    heads j x W (ix4 b h s d) = proj x W j b h s d := rfl

end Cert.Qkv

end
-- ==== Proof.RefHeads.lean ====
/-
  The reference computes `heads j`.

  The reference contracts `x` [4, 4096, 2048] with `W` [6144, 2048] over the feature axis into [4, 4096, 6144], cuts
  the last axis into three runs of 2048 columns, views each run's 2048 columns as 16 heads of 128 coordinates, and swaps the
  position and head axes. Read at the result index (b, h, s, d) of run `j`: the swap reads (b, s, h, d), the view reads
  column `h * 128 + d` of the run, the cut reads column `j * 2048 + h * 128 + d` of the contraction, and the contraction
  there is the inner product of input row (b, s) with weight row `j * 2048 + h * 128 + d`.
-/
import proofs.«132882_j1039382086403_2_alg».proof.Proof.Gen.ReferenceIdeal.Read
import proofs.«132882_j1039382086403_2_alg».proof.Proof.QkvSpec

noncomputable section

open scoped BigOperators

namespace Cert.ReferenceIdeal.RefHeads

open Cert.ReferenceIdeal Cert.ReferenceIdeal.Read Idealize.ShloMosaic Idealize.ShloMosaic.ValueIdx Cert.Qkv

/-- The left operand's index of the contraction, chased back from result index (b, h, s, d): input (b, s, k). -/
theorem lidx_q (b : Fin 4) (h : Fin 16) (s : Fin 4096) (d : Fin 128) (k : Fin 2048) :
    lidx_main_v0 (idx_main_v1 (idx_main_v4 (idx_main_v5 (ix4 b h s d)))) k = ix3 b s k :=
  funext fun a => Fin.ext (by
    have := b.isLt; have := h.isLt; have := s.isLt; have := d.isLt
    match a with
    | ⟨0, _⟩ => show ((((b.val * 4096 + s.val) * 16 + h.val) * 128 + d.val) / 8388608) = b.val; omega
    | ⟨1, _⟩ => show ((((b.val * 4096 + s.val) * 16 + h.val) * 128 + d.val) / 2048 % 4096) = s.val; omega
    | ⟨2, _⟩ => rfl)
theorem lidx_k (b : Fin 4) (h : Fin 16) (s : Fin 4096) (d : Fin 128) (k : Fin 2048) :
    lidx_main_v0 (idx_main_v2 (idx_main_v6 (idx_main_v7 (ix4 b h s d)))) k = ix3 b s k :=
  funext fun a => Fin.ext (by
    have := b.isLt; have := h.isLt; have := s.isLt; have := d.isLt
    match a with
    | ⟨0, _⟩ => show ((((b.val * 4096 + s.val) * 16 + h.val) * 128 + d.val) / 8388608) = b.val; omega
    | ⟨1, _⟩ => show ((((b.val * 4096 + s.val) * 16 + h.val) * 128 + d.val) / 2048 % 4096) = s.val; omega
    | ⟨2, _⟩ => rfl)
theorem lidx_v (b : Fin 4) (h : Fin 16) (s : Fin 4096) (d : Fin 128) (k : Fin 2048) :
    lidx_main_v0 (idx_main_v3 (idx_main_v8 (idx_main_v9 (ix4 b h s d)))) k = ix3 b s k :=
  funext fun a => Fin.ext (by
    have := b.isLt; have := h.isLt; have := s.isLt; have := d.isLt
    match a with
    | ⟨0, _⟩ => show ((((b.val * 4096 + s.val) * 16 + h.val) * 128 + d.val) / 8388608) = b.val; omega
    | ⟨1, _⟩ => show ((((b.val * 4096 + s.val) * 16 + h.val) * 128 + d.val) / 2048 % 4096) = s.val; omega
    | ⟨2, _⟩ => rfl)

/-- The right operand's index: weight row `j * 2048 + h * 128 + d`, column k. -/
theorem ridx_q (b : Fin 4) (h : Fin 16) (s : Fin 4096) (d : Fin 128) (k : Fin 2048) :
    ridx_main_v0 (idx_main_v1 (idx_main_v4 (idx_main_v5 (ix4 b h s d)))) k = ix2 (wrow 0 h d) k :=
  funext fun a => Fin.ext (by
    have := b.isLt; have := h.isLt; have := s.isLt; have := d.isLt
    match a with
    | ⟨0, _⟩ => show ((((b.val * 4096 + s.val) * 16 + h.val) * 128 + d.val) % 2048) = 0 * 2048 + h.val * 128 + d.val; omega
    | ⟨1, _⟩ => rfl)
theorem ridx_k (b : Fin 4) (h : Fin 16) (s : Fin 4096) (d : Fin 128) (k : Fin 2048) :
    ridx_main_v0 (idx_main_v2 (idx_main_v6 (idx_main_v7 (ix4 b h s d)))) k = ix2 (wrow 1 h d) k :=
  funext fun a => Fin.ext (by
    have := b.isLt; have := h.isLt; have := s.isLt; have := d.isLt
    match a with
    | ⟨0, _⟩ => show 2048 + ((((b.val * 4096 + s.val) * 16 + h.val) * 128 + d.val) % 2048) = 1 * 2048 + h.val * 128 + d.val; omega
    | ⟨1, _⟩ => rfl)
theorem ridx_v (b : Fin 4) (h : Fin 16) (s : Fin 4096) (d : Fin 128) (k : Fin 2048) :
    ridx_main_v0 (idx_main_v3 (idx_main_v8 (idx_main_v9 (ix4 b h s d)))) k = ix2 (wrow 2 h d) k :=
  funext fun a => Fin.ext (by
    have := b.isLt; have := h.isLt; have := s.isLt; have := d.isLt
    match a with
    | ⟨0, _⟩ => show 4096 + ((((b.val * 4096 + s.val) * 16 + h.val) * 128 + d.val) % 2048) = 2 * 2048 + h.val * 128 + d.val; omega
    | ⟨1, _⟩ => rfl)

/-- The reference's first result is the query segment. -/
theorem val_q (x : (⟨S4x4096x2048, .f32⟩ : BufTy).Contents (Elt Ideal)) (W : (⟨S6144x2048, .f32⟩ : BufTy).Contents (Elt Ideal)) :
    val_main_v5 (F := Ideal) x W = heads 0 x W := by
  funext i
  obtain ⟨b, h, s, d, rfl⟩ : ∃ (b : Fin 4) (h : Fin 16) (s : Fin 4096) (d : Fin 128), i = ix4 b h s d := ⟨i 0, i 1, i 2, i 3, eq_ix4 i⟩
  rw [val_main_v5_apply, val_main_v4_apply, val_main_v1_apply, val_main_v0_apply, heads_ix4]
  unfold proj
  exact Finset.sum_congr rfl fun k _ => by rw [lidx_q, ridx_q]

/-- The second is the key segment. -/
theorem val_k (x : (⟨S4x4096x2048, .f32⟩ : BufTy).Contents (Elt Ideal)) (W : (⟨S6144x2048, .f32⟩ : BufTy).Contents (Elt Ideal)) :
    val_main_v7 (F := Ideal) x W = heads 1 x W := by
  funext i
  obtain ⟨b, h, s, d, rfl⟩ : ∃ (b : Fin 4) (h : Fin 16) (s : Fin 4096) (d : Fin 128), i = ix4 b h s d := ⟨i 0, i 1, i 2, i 3, eq_ix4 i⟩
  rw [val_main_v7_apply, val_main_v6_apply, val_main_v2_apply, val_main_v0_apply, heads_ix4]
  unfold proj
  exact Finset.sum_congr rfl fun k _ => by rw [lidx_k, ridx_k]

/-- The third is the value segment. -/
theorem val_v (x : (⟨S4x4096x2048, .f32⟩ : BufTy).Contents (Elt Ideal)) (W : (⟨S6144x2048, .f32⟩ : BufTy).Contents (Elt Ideal)) :
    val_main_v9 (F := Ideal) x W = heads 2 x W := by
  funext i
  obtain ⟨b, h, s, d, rfl⟩ : ∃ (b : Fin 4) (h : Fin 16) (s : Fin 4096) (d : Fin 128), i = ix4 b h s d := ⟨i 0, i 1, i 2, i 3, eq_ix4 i⟩
  rw [val_main_v9_apply, val_main_v8_apply, val_main_v3_apply, val_main_v0_apply, heads_ix4]
  unfold proj
  exact Finset.sum_congr rfl fun k _ => by rw [lidx_v, ridx_v]

end Cert.ReferenceIdeal.RefHeads

end
-- ==== Proof.Payload.lean ====
/-
  What the kernel body stores, read at an index.

  The body loads a [512, 2048] block `a` of the flattened input and a [2048, 2048] block `w` of the stacked weight,
  contracts them over their second axes into the [512, 2048] product `p (r, c) = ∑ k, a (r, k) * w (c, k)` (the
  accumulator starts at zero), views the 2048 columns as 16 heads of 128 coordinates, swaps the row and head axes, and
  stores the result as a [1, 1, 16, 512, 128] block. At block index (0, 0, h, r, d) the view-and-swap reads column
  `h * 128 + d` of row `r`, so the stored value is `∑ k, a (r, k) * w (h * 128 + d, k)`.
-/
import proofs.«132882_j1039382086403_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- Column of the [512, 2048] product that holds head `h`, head coordinate `d`. -/
def col (h : Fin 16) (d : Fin 128) : Fin 2048 :=
  ⟨h.val * 128 + d.val, by have := h.isLt; have := d.isLt; omega⟩

theorem col_val (h : Fin 16) (d : Fin 128) : (col h d).val = h.val * 128 + d.val := rfl

/-- Adding the two leading unit axes does not move an element. -/
theorem unit_axes_apply {α : Type} (v : S16x512x128.Idx → α) (hc : S16x512x128.ShapeCasts S1x1x16x512x128)
    (u0 u1 : Fin 1) (h : Fin 16) (r : Fin 512) (d : Fin 128) :
    shapeCast S1x1x16x512x128 v hc (ix5 u0 u1 h r d) = v (ix3 h r d) :=
  shapeCast_apply v hc (ix5 u0 u1 h r d) (ix3 h r d) (by
    rewrite [Shape.rowMajor_val_three, Shape.rowMajor_val_five]
    have := u0.isLt; have := u1.isLt
    show (h.val * 512 + r.val) * 128 + d.val = (((u0.val * 1 + u1.val) * 16 + h.val) * 512 + r.val) * 128 + d.val
    omega)

/-- The swap of the row and head axes read at (h, r, d) is the operand at (r, h, d). -/
theorem swap_apply {α : Type} (v : S512x16x128.Idx → α) (ht : S512x16x128.Transposes [1, 0, 2] S16x512x128)
    (h : Fin 16) (r : Fin 512) (d : Fin 128) :
    transpose S16x512x128 [1, 0, 2] v ht (ix3 h r d) = v (ix3 r h d) :=
  transpose_apply [1, 0, 2] v ht (ix3 h r d) (ix3 r h d) (fun b => match b with
    | ⟨0, _⟩ => rfl
    | ⟨1, _⟩ => rfl
    | ⟨2, _⟩ => rfl)

/-- The view of 2048 columns as 16 heads of 128 coordinates, read at (r, h, d), is column `h * 128 + d` of row `r`. -/
theorem split_apply {α : Type} (v : S512x2048.Idx → α) (hc : S512x2048.ShapeCasts S512x16x128)
    (r : Fin 512) (h : Fin 16) (d : Fin 128) :
    shapeCast S512x16x128 v hc (ix3 r h d) = v (ix2 r (col h d)) :=
  shapeCast_apply v hc (ix3 r h d) (ix2 r (col h d)) (by
    rewrite [Shape.rowMajor_val_two, Shape.rowMajor_val_three]
    show r.val * 2048 + (h.val * 128 + d.val) = (r.val * 16 + h.val) * 128 + d.val
    omega)

/-! The contraction's operand indices: output (r, c) and contraction position k read the left operand at (r, k)
    and the right operand at (c, k). -/

theorem lhs_0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lhs_1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
theorem rhs_0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rhs_1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The contraction into a zero accumulator, read at (r, c): the inner product of row `r` of the left operand with
    row `c` of the right. -/
theorem product_apply (a : FVec Ideal S512x2048 .bf16) (w : FVec Ideal S2048x2048 .bf16) (r : Fin 512) (c : Fin 2048) :
    matmul dot_S512x2048_S2048x2048_S512x2048_1_1_0_0_n_n none a w (constant (F := Ideal) S512x2048 .f32 0x00000000#32) (ix2 r c)
      = ∑ k : Fin 2048, a (ix2 r k) * w (ix2 c k) := by
  show FloatOps.matmul dot_S512x2048_S2048x2048_S512x2048_1_1_0_0_n_n none a w (constant (F := Ideal) S512x2048 .f32 0x00000000#32) (ix2 r c) = _
  rw [Ideal.matmul_constant_zero_apply, ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 r c) ((contrEquiv1 dot_S512x2048_S2048x2048_S512x2048_1_1_0_0_n_n 2048 rfl rfl).symm k) = ix2 r k := funext fun x => Fin.ext (by
    match x with
    | ⟨0, _⟩ => exact lhs_0 _ _
    | ⟨1, _⟩ => exact (lhs_1 _ _).trans hk)
  have er : dot_S512x2048_S2048x2048_S512x2048_1_1_0_0_n_n.rhsIdx (ix2 r c) ((contrEquiv1 dot_S512x2048_S2048x2048_S512x2048_1_1_0_0_n_n 2048 rfl rfl).symm k) = ix2 c k := funext fun x => Fin.ext (by
    match x with
    | ⟨0, _⟩ => exact rhs_0 _ _
    | ⟨1, _⟩ => exact (rhs_1 _ _).trans hk)
  rw [el, er]

/-- THE STORED BLOCK at (0, 0, h, r, d): the inner product of row `r` of the input block with row `h * 128 + d` of the
    weight block. -/
theorem stored_apply (a : Vec Ideal S512x2048 .bf16) (w : Vec Ideal S2048x2048 .bf16)
    (u0 u1 : Fin 1) (h : Fin 16) (r : Fin 512) (d : Fin 128) :
    k0_pay1 (F := Ideal) a w (ix5 u0 u1 h r d) = ∑ k : Fin 2048, a (ix2 r k) * w (ix2 (col h d) k) := by
  unfold k0_pay1
  refine (unit_axes_apply _ _ u0 u1 h r d).trans ?_
  refine (swap_apply _ _ h r d).trans ?_
  refine (split_apply _ _ r h d).trans ?_
  rw [shapeCast_self, shapeCast_self]
  exact product_apply a w r (col h d)

end Cert.KernelIdeal.Payload

end
-- ==== Proof.Blocks.lean ====
/-
  From the blocks to the array: what the kernel's output array holds after the run.

  The grid has 3 × 32 points; point `t` is segment `t / 32` and row tile `t % 32`. At point `t` the kernel reads rows
  `(t % 32) * 512 …` of the flattened input (a [512, 2048] block) and rows `(t / 32) * 2048 …` of the stacked weight (a
  [2048, 2048] block: one whole segment), and writes the [1, 1, 16, 512, 128] block of the [3, 4, 16, 4096, 128] output
  at segment `t / 32`, batch `(t % 32) / 8`, all 16 heads, positions `((t % 32) % 8) * 512 …`, all 128 coordinates.
  Row tile `i` of the flattened input is batch `i / 8`, positions `(i % 8) * 512 …` (4096 = 8 * 512), so the block
  written at point `t` is that block of `stackedRows` of the two arrays the region reads; the 96 blocks tile the
  output, so the output array ends holding `stackedRows` of them.
-/
import proofs.«132882_j1039382086403_2_alg».proof.Proof.Gen.KernelIdeal.Frame
import proofs.«132882_j1039382086403_2_alg».proof.Proof.Payload
import proofs.«132882_j1039382086403_2_alg».proof.Proof.QkvSpec
import Idealize.ShloMosaic.Lib.Pipeline.Value

noncomputable section

open scoped BigOperators

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.Qkv Cert.KernelIdeal.Payload

variable (m : (ℓ : Loc nD τ sig) → Buf (Elt Ideal) ℓ)

theorem zeros2 : (![0, 0] : Fin 2 → Nat) = fun _ => 0 := funext fun a => by fin_cases a <;> rfl
theorem zeros5 : (![0, 0, 0, 0, 0] : Fin 5 → Nat) = fun _ => 0 := funext fun a => by fin_cases a <;> rfl

/-- The three index maps in closed form, decided over the 96 grid points. -/
theorem block_indices : ∀ t : Fin cfg0.N,
    win0_0.index t (0 : Fin 2) = t.val % 32 ∧ win0_0.index t (1 : Fin 2) = 0
    ∧ win0_1.index t (0 : Fin 2) = t.val / 32 ∧ win0_1.index t (1 : Fin 2) = 0
    ∧ win0_2.index t (0 : Fin 5) = t.val / 32 ∧ win0_2.index t (1 : Fin 5) = t.val % 32 / 8
    ∧ win0_2.index t (2 : Fin 5) = 0 ∧ win0_2.index t (3 : Fin 5) = t.val % 32 % 8 ∧ win0_2.index t (4 : Fin 5) = 0 :=
  (by decide +kernel : ∀ t : Fin grid0.N, _)

/-- One point's stored block is the block of `stackedRows` it covers: for an input block `a` that is rows
    `ox * 512 …` of `X`, a weight block `w` that is rows `ow * 2048 …` of `W`, and an output index `i` that is
    segment `ow`, flattened row `ox * 512 + r`, head and coordinate those of the block index `y`. -/
theorem point_value (X : S16384x2048.Idx → EReal) (W : S6144x2048.Idx → EReal)
    (a : Vec Ideal S512x2048 .bf16) (w : Vec Ideal S2048x2048 .bf16) (ox ow : Nat)
    (ha : ∀ (r : Fin 512) (k : Fin 2048) (p : Fin 16384), p.val = ox * 512 + r.val → a (ix2 r k) = X (ix2 p k))
    (hw : ∀ (cc : Fin 2048) (k : Fin 2048) (p : Fin 6144), p.val = ow * 2048 + cc.val → w (ix2 cc k) = W (ix2 p k))
    (y : S1x1x16x512x128.Idx) (i : S3x4x16x4096x128.Idx)
    (h0 : (i 0).val = ow) (h13 : (i 1).val * 4096 + (i 3).val = ox * 512 + (y 3).val)
    (h2 : (i 2).val = (y 2).val) (h4 : (i 4).val = (y 4).val) :
    k0_pay1 (F := Ideal) a w y = stackedRows X W i := by
  obtain ⟨u0, u1, h, r, d, rfl⟩ : ∃ (u0 u1 : Fin 1) (h : Fin 16) (r : Fin 512) (d : Fin 128), y = ix5 u0 u1 h r d :=
    ⟨y 0, y 1, y 2, y 3, y 4, eq_ix5 y⟩
  obtain ⟨j, b, h', s, d', rfl⟩ : ∃ (j : Fin 3) (b : Fin 4) (h' : Fin 16) (s : Fin 4096) (d' : Fin 128), i = ix5 j b h' s d' :=
    ⟨i 0, i 1, i 2, i 3, i 4, eq_ix5 i⟩
  have e0 : j.val = ow := h0
  have e13 : b.val * 4096 + s.val = ox * 512 + r.val := h13
  have e2 : h'.val = h.val := h2
  have e4 : d'.val = d.val := h4
  rw [stored_apply, stackedRows_ix5]
  unfold projRows
  refine Finset.sum_congr rfl fun k _ => ?_
  rw [ha r k (xrow b s) (by rw [xrow_val]; exact e13),
    hw (col h d) k (wrow j h' d') (by rw [wrow_val, col_val, e0, e2, e4]; omega)]

/-- The input window's block at point `t` is rows `(t % 32) * 512 …` of the array the region reads. -/
theorem xblock_apply (c : Dev nD) (t : Fin cfg0.N) (r : Fin 512) (k : Fin 2048) (p : Fin 16384)
    (hp : p.val = t.val % 32 * 512 + r.val) :
    (iblk m c 0 t : Vec Ideal S512x2048 .bf16) (ix2 r k) = (V m c main_v1 : S16384x2048.Idx → EReal) (ix2 p k) := by
  obtain ⟨e0, e1, -⟩ := block_indices t
  unfold iblk
  rw [View.read_apply]
  show V m c main_v1 _ = V m c main_v1 _
  refine congrArg (V m c main_v1) (funext fun x => Fin.ext ?_)
  match x with
  | ⟨0, _⟩ => show win0_0.index t (0 : Fin 2) * 512 + 1 * r.val = p.val; rw [e0, hp]; omega
  | ⟨1, _⟩ => show win0_0.index t (1 : Fin 2) * 2048 + 1 * k.val = k.val; rw [e1]; omega

/-- The weight window's block at point `t` is rows `(t / 32) * 2048 …` of the array the region reads. -/
theorem wblock_apply (c : Dev nD) (t : Fin cfg0.N) (cc : Fin 2048) (k : Fin 2048) (p : Fin 6144)
    (hp : p.val = t.val / 32 * 2048 + cc.val) :
    (iblk m c 1 t : Vec Ideal S2048x2048 .bf16) (ix2 cc k) = (V m c main_v2 : S6144x2048.Idx → EReal) (ix2 p k) := by
  obtain ⟨-, -, e0, e1, -⟩ := block_indices t
  unfold iblk
  rw [View.read_apply]
  show V m c main_v2 _ = V m c main_v2 _
  refine congrArg (V m c main_v2) (funext fun x => Fin.ext ?_)
  match x with
  | ⟨0, _⟩ => show win0_1.index t (0 : Fin 2) * 2048 + 1 * cc.val = p.val; rw [e0, hp]; omega
  | ⟨1, _⟩ => show win0_1.index t (1 : Fin 2) * 2048 + 1 * k.val = k.val; rw [e1]; omega

/-- WHAT POINT `t` WRITES BACK is block `t` of `stackedRows` of the two arrays the region reads. -/
theorem flushed_eq (c : Dev nD) (t : Fin cfg0.N) :
    (dats m 0 c).flushed 2 t
      = ((cfg0.win 2).blk t).view.read (Elt Ideal) (stackedRows (V m c main_v1) (V m c main_v2)) := by
  show (cfg0.win 2).cut (grid0.coords t) ((dats m 0 c).after 2 t) = _
  rw [after0_2]
  unfold out0_2
  rw [View.canon_unit_zero zeros5]
  simp only [View.ld_unit_zero (S := S512x2048) zeros2, View.ld_unit_zero (S := S2048x2048) zeros2]
  obtain ⟨-, -, -, -, e0, e1, e2, e3, e4⟩ := block_indices t
  funext y
  have hy0 : (y 0).val < 1 := (y 0).isLt
  have hy1 : (y 1).val < 1 := (y 1).isLt
  refine point_value (V m c main_v1) (V m c main_v2) (iblk m c 0 t) (iblk m c 1 t) (t.val % 32) (t.val / 32)
    (fun r k p hp => xblock_apply m c t r k p hp) (fun cc k p hp => wblock_apply m c t cc k p hp)
    y (((cfg0.win 2).blk t).view.emb y) ?_ ?_ ?_ ?_
  · show win0_2.index t (0 : Fin 5) * 1 + 1 * (y 0).val = t.val / 32
    rw [e0]; omega
  · show (win0_2.index t (1 : Fin 5) * 1 + 1 * (y 1).val) * 4096 + (win0_2.index t (3 : Fin 5) * 512 + 1 * (y 3).val)
      = t.val % 32 * 512 + (y 3).val
    rw [e1, e3]; omega
  · show win0_2.index t (2 : Fin 5) * 16 + 1 * (y 2).val = (y 2).val
    rw [e2]; omega
  · show win0_2.index t (4 : Fin 5) * 128 + 1 * (y 4).val = (y 4).val
    rw [e4]; omega

/-- An index of the output array is in point `t`'s block iff each coordinate is in the block's range on its axis. -/
theorem mem_block (t : Fin cfg0.N) (i : S3x4x16x4096x128.Idx) :
    i ∈ ((cfg0.win 2).blk t).view.set ↔ ∀ a : Fin 5, win0_2.index t a * S1x1x16x512x128.size a ≤ (i a).val
      ∧ (i a).val < win0_2.index t a * S1x1x16x512x128.size a + S1x1x16x512x128.size a := by
  show i ∈ ((View.whole main_v3).slice (win0_2.rect t)).set ↔ _
  rw [View.set_slice_whole, Rect.mem_set_unit]
  exact Iff.rfl

/-- The blocks tile the output: index (j, b, h, s, d) is in the block of point `j * 32 + b * 8 + s / 512`. -/
theorem covered (i : S3x4x16x4096x128.Idx) :
    ∃ t : Fin cfg0.N, (cfg0.win 2).flush t = true ∧ i ∈ ((cfg0.win 2).blk t).view.set := by
  have hN : cfg0.N = 96 := N_0
  have h0 : (i 0).val < 3 := (i 0).isLt
  have h1 : (i 1).val < 4 := (i 1).isLt
  have h2 : (i 2).val < 16 := (i 2).isLt
  have h3 : (i 3).val < 4096 := (i 3).isLt
  have h4 : (i 4).val < 128 := (i 4).isLt
  obtain ⟨t, ht⟩ : ∃ t : Fin cfg0.N, t.val = (i 0).val * 32 + (i 1).val * 8 + (i 3).val / 512 :=
    ⟨⟨(i 0).val * 32 + (i 1).val * 8 + (i 3).val / 512, by rw [hN]; omega⟩, rfl⟩
  refine ⟨t, flush0_2 t, ?_⟩
  rw [mem_block]
  obtain ⟨-, -, -, -, e0, e1, e2, e3, e4⟩ := block_indices t
  intro a
  match a with
  | ⟨0, _⟩ =>
    show win0_2.index t (0 : Fin 5) * 1 ≤ (i 0).val ∧ (i 0).val < win0_2.index t (0 : Fin 5) * 1 + 1
    rw [e0, ht]; omega
  | ⟨1, _⟩ =>
    show win0_2.index t (1 : Fin 5) * 1 ≤ (i 1).val ∧ (i 1).val < win0_2.index t (1 : Fin 5) * 1 + 1
    rw [e1, ht]; omega
  | ⟨2, _⟩ =>
    show win0_2.index t (2 : Fin 5) * 16 ≤ (i 2).val ∧ (i 2).val < win0_2.index t (2 : Fin 5) * 16 + 16
    rw [e2]; omega
  | ⟨3, _⟩ =>
    show win0_2.index t (3 : Fin 5) * 512 ≤ (i 3).val ∧ (i 3).val < win0_2.index t (3 : Fin 5) * 512 + 512
    rw [e3, ht]; omega
  | ⟨4, _⟩ =>
    show win0_2.index t (4 : Fin 5) * 128 ≤ (i 4).val ∧ (i 4).val < win0_2.index t (4 : Fin 5) * 128 + 128
    rw [e4]; omega

/-- THE OUTPUT ARRAY after the run: `stackedRows` of the two arrays the region reads. -/
theorem final (c : Dev nD) :
    (dats m 0 c).arrAt 2 cfg0.N = stackedRows (V m c main_v1) (V m c main_v2) :=
  (dats m 0 c).arrAt_eq_of_cover 2 (stackedRows (V m c main_v1) (V m c main_v2)) (fun t _ => flushed_eq m c t)
    (covered)

end Cert.KernelIdeal.Blocks

end
-- ==== Proof.HostSides.lean ====
/-
  The host operations around the kernel, and the kernel program's three results.

  Before the region the program flattens `x` [4, 4096, 2048] to [16384, 2048] (row `b * 4096 + s` is batch `b`, position
  `s`) and changes the float format of both arguments, which keeps every value. So the arrays the region reads are the
  flattening of `x`, and `W` itself, and the output array `stackedRows` of them (Blocks.lean) is at
  (j, b, h, s, d) the projected value `proj x W j b h s d`.
  After the region the program cuts the [3, 4, 16, 4096, 128] output along its first axis into the three segments and
  drops that unit axis: result `j` at (b, h, s, d) is the output at (j, b, h, s, d). So result `j` is `heads j x W`.
-/
import proofs.«132882_j1039382086403_2_alg».proof.Proof.Blocks
import Idealize.ShloMosaic.Lib.StableHlo.Run

noncomputable section

open scoped BigOperators

open Idealize.ShloMosaic Idealize.ShloMosaic.TcCoe Idealize.SL.Sem
open Idealize.ShloMosaic.Pipeline (Dat)

namespace Cert.KernelIdeal.HostSides

open Cert.KernelIdeal Cert.KernelIdeal.Gen Idealize.ShloMosaic.ValueIdx Idealize.ShloMosaic.StableHlo Cert.Qkv

variable (m : (ℓ : Loc nD τ sig) → Buf (Elt Ideal) ℓ) (ρ : Dev nD → PrngReg)

/-! ## Before the region -/

/-- The input array the region reads: `x` flattened, in the narrower format. -/
theorem entry_x (c : Dev nD) : (V m c main_v1 : S16384x2048.Idx → EReal)
    = truncf (F := Ideal) .bf16 (shapeCast S16384x2048 (m ((c : Thread nD τ).loc main_arg0) : S4x4096x2048.Idx → EReal)
        Gen.shapeCasts_S4x4096x2048_S16384x2048) Gen.bitsLt_bf16_f32 := by
  show StableHlo.after hostOps0 (fun b => m (c, b)) (Proc.devRef .tc main_v1) = _
  after_results <;> rfl

/-- The weight array the region reads: `W` in the narrower format. -/
theorem entry_w (c : Dev nD) : (V m c main_v2 : S6144x2048.Idx → EReal)
    = truncf (F := Ideal) .bf16 (m ((c : Thread nD τ).loc main_arg1) : S6144x2048.Idx → EReal) Gen.bitsLt_bf16_f32 := by
  show StableHlo.after hostOps0 (fun b => m (c, b)) (Proc.devRef .tc main_v2) = _
  after_results <;> rfl

/-- Row `b * 4096 + s` of the array the region reads is input row (b, s). -/
theorem entry_x_apply (c : Dev nD) (b : Fin 4) (s : Fin 4096) (k : Fin 2048) :
    (V m c main_v1 : S16384x2048.Idx → EReal) (ix2 (xrow b s) k)
      = (m ((c : Thread nD τ).loc main_arg0) : S4x4096x2048.Idx → EReal) (ix3 b s k) := by
  rw [entry_x, truncf_apply]
  exact shapeCast_apply _ _ (ix2 (xrow b s) k) (ix3 b s k) (by
    rewrite [Shape.rowMajor_val_three, Shape.rowMajor_val_two]
    show (b.val * 4096 + s.val) * 2048 + k.val = (b.val * 4096 + s.val) * 2048 + k.val
    rfl)

/-- The weight array the region reads holds the values of `W`. -/
theorem entry_w_eq (c : Dev nD) :
    (V m c main_v2 : S6144x2048.Idx → EReal) = (m ((c : Thread nD τ).loc main_arg1) : S6144x2048.Idx → EReal) := by
  rw [entry_w]
  exact funext fun i => truncf_apply _ _ i

/-! ## After the region -/

/-- Segment `j` of a [3, 4, 16, 4096, 128] array with the unit axis dropped, read at (b, h, s, d), is the array at
    (j, b, h, s, d). -/
theorem segment_apply {α : Type} (A : S3x4x16x4096x128.Idx → α) (off : Fin 5 → Nat)
    (hs : S3x4x16x4096x128.Slices off S1x4x16x4096x128) (hc : S1x4x16x4096x128.ShapeCasts S4x16x4096x128) (j : Fin 3)
    (h0 : off 0 = j.val) (h1 : off 1 = 0) (h2 : off 2 = 0) (h3 : off 3 = 0) (h4 : off 4 = 0)
    (b : Fin 4) (h : Fin 16) (s : Fin 4096) (d : Fin 128) :
    shapeCast S4x16x4096x128 (extractStridedSlice S1x4x16x4096x128 off A hs) hc (ix4 b h s d) = A (ix5 j b h s d) := by
  refine (shapeCast_apply _ hc (ix4 b h s d) (ix5 (0 : Fin 1) b h s d) (by
    rewrite [Shape.rowMajor_val_five, Shape.rowMajor_val_four]
    show (((0 * 4 + b.val) * 16 + h.val) * 4096 + s.val) * 128 + d.val = ((b.val * 16 + h.val) * 4096 + s.val) * 128 + d.val
    omega)).trans ?_
  exact extractStridedSlice_apply off A hs (ix5 (0 : Fin 1) b h s d) (ix5 j b h s d) (fun a => match a with
    | ⟨0, _⟩ => by show j.val = off 0 + 0; omega
    | ⟨1, _⟩ => by show b.val = off 1 + b.val; omega
    | ⟨2, _⟩ => by show h.val = off 2 + h.val; omega
    | ⟨3, _⟩ => by show s.val = off 3 + s.val; omega
    | ⟨4, _⟩ => by show d.val = off 4 + d.val; omega)

/-- The first result after the tail: segment 0 of the region's output array. -/
theorem tail_q (c : Dev nD) : (Pipeline.afterTail₀ cfgs (dats m) 0 (V0 m) [hostOps1] c main_v5 : S4x16x4096x128.Idx → EReal)
    = shapeCast S4x16x4096x128 (extractStridedSlice S1x4x16x4096x128 ![0, 0, 0, 0, 0]
        ((dats m 0 c).arrAt 2 cfg0.N : S3x4x16x4096x128.Idx → EReal) Gen.slices_S3x4x16x4096x128_S1x4x16x4096x128_0_0_0_0_0)
        Gen.shapeCasts_S1x4x16x4096x128_S4x16x4096x128 := by
  unfold Pipeline.afterTail₀
  show StableHlo.after hostOps1 _ (Proc.devRef .tc main_v5) = _
  after_results
  rw [Pipeline.withArrays_arr spec0 launch0.win.arr_inj c _ _ 2]
  rfl

/-- The second: segment 1. -/
theorem tail_k (c : Dev nD) : (Pipeline.afterTail₀ cfgs (dats m) 0 (V0 m) [hostOps1] c main_v7 : S4x16x4096x128.Idx → EReal)
    = shapeCast S4x16x4096x128 (extractStridedSlice S1x4x16x4096x128 ![1, 0, 0, 0, 0]
        ((dats m 0 c).arrAt 2 cfg0.N : S3x4x16x4096x128.Idx → EReal) Gen.slices_S3x4x16x4096x128_S1x4x16x4096x128_1_0_0_0_0)
        Gen.shapeCasts_S1x4x16x4096x128_S4x16x4096x128 := by
  unfold Pipeline.afterTail₀
  show StableHlo.after hostOps1 _ (Proc.devRef .tc main_v7) = _
  after_results
  rw [Pipeline.withArrays_arr spec0 launch0.win.arr_inj c _ _ 2]
  rfl

/-- The third: segment 2. -/
theorem tail_v (c : Dev nD) : (Pipeline.afterTail₀ cfgs (dats m) 0 (V0 m) [hostOps1] c main_v9 : S4x16x4096x128.Idx → EReal)
    = shapeCast S4x16x4096x128 (extractStridedSlice S1x4x16x4096x128 ![2, 0, 0, 0, 0]
        ((dats m 0 c).arrAt 2 cfg0.N : S3x4x16x4096x128.Idx → EReal) Gen.slices_S3x4x16x4096x128_S1x4x16x4096x128_2_0_0_0_0)
        Gen.shapeCasts_S1x4x16x4096x128_S4x16x4096x128 := by
  unfold Pipeline.afterTail₀
  show StableHlo.after hostOps1 _ (Proc.devRef .tc main_v9) = _
  after_results
  rw [Pipeline.withArrays_arr spec0 launch0.win.arr_inj c _ _ 2]
  rfl

/-! ## The three results -/

/-- The region's output array at (j, b, h, s, d) is the projected value of the ARGUMENTS. -/
theorem output_apply (c : Dev nD) (j : Fin 3) (b : Fin 4) (h : Fin 16) (s : Fin 4096) (d : Fin 128) :
    ((dats m 0 c).arrAt 2 cfg0.N : S3x4x16x4096x128.Idx → EReal) (ix5 j b h s d)
      = proj (m ((c : Thread nD τ).loc main_arg0)) (m ((c : Thread nD τ).loc main_arg1)) j b h s d := by
  rw [Blocks.final, stackedRows_ix5, entry_w_eq]
  exact projRows_eq_proj _ _ _ (fun b s k => entry_x_apply m c b s k) j b h s d

theorem result_q (c : Dev nD) : (Pipeline.afterTail₀ cfgs (dats m) 0 (V0 m) [hostOps1] c main_v5 : S4x16x4096x128.Idx → EReal)
    = heads 0 (m ((c : Thread nD τ).loc main_arg0)) (m ((c : Thread nD τ).loc main_arg1)) := by
  rw [tail_q]
  funext i
  obtain ⟨b, h, s, d, rfl⟩ : ∃ (b : Fin 4) (h : Fin 16) (s : Fin 4096) (d : Fin 128), i = ix4 b h s d := ⟨i 0, i 1, i 2, i 3, eq_ix4 i⟩
  rw [segment_apply _ _ _ _ 0 rfl rfl rfl rfl rfl, output_apply, heads_ix4]

theorem result_k (c : Dev nD) : (Pipeline.afterTail₀ cfgs (dats m) 0 (V0 m) [hostOps1] c main_v7 : S4x16x4096x128.Idx → EReal)
    = heads 1 (m ((c : Thread nD τ).loc main_arg0)) (m ((c : Thread nD τ).loc main_arg1)) := by
  rw [tail_k]
  funext i
  obtain ⟨b, h, s, d, rfl⟩ : ∃ (b : Fin 4) (h : Fin 16) (s : Fin 4096) (d : Fin 128), i = ix4 b h s d := ⟨i 0, i 1, i 2, i 3, eq_ix4 i⟩
  rw [segment_apply _ _ _ _ 1 rfl rfl rfl rfl rfl, output_apply, heads_ix4]

theorem result_v (c : Dev nD) : (Pipeline.afterTail₀ cfgs (dats m) 0 (V0 m) [hostOps1] c main_v9 : S4x16x4096x128.Idx → EReal)
    = heads 2 (m ((c : Thread nD τ).loc main_arg0)) (m ((c : Thread nD τ).loc main_arg1)) := by
  rw [tail_v]
  funext i
  obtain ⟨b, h, s, d, rfl⟩ : ∃ (b : Fin 4) (h : Fin 16) (s : Fin 4096) (d : Fin 128), i = ix4 b h s d := ⟨i 0, i 1, i 2, i 3, eq_ix4 i⟩
  rw [segment_apply _ _ _ _ 2 rfl rfl rfl rfl rfl, output_apply, heads_ix4]

/-! ## The run, read -/

/-- Every weakly fair execution of the kernel program terminates with its three results at the three segments of the
    projection of its arguments, and the arguments unchanged. -/
theorem run : θ_run defs (onTc (τ := τ) (main (F := Ideal))) ⟨m, fun _ => 0, ρ⟩ fun r => ∀ c : Dev nD,
      r.2.mem ((c.tc : Thread nD τ).loc main_v5) = heads 0 (m ((c.tc : Thread nD τ).loc main_arg0)) (m ((c.tc : Thread nD τ).loc main_arg1))
      ∧ r.2.mem ((c.tc : Thread nD τ).loc main_v7) = heads 1 (m ((c.tc : Thread nD τ).loc main_arg0)) (m ((c.tc : Thread nD τ).loc main_arg1))
      ∧ r.2.mem ((c.tc : Thread nD τ).loc main_v9) = heads 2 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (result_q m c),
      ((h c).2 main_v7 (Pipeline.mem_restRefs_of main_v7 (by decide) (by decide))).trans (result_k m c),
      ((h c).2 main_v9 (Pipeline.mem_restRefs_of main_v9 (by decide) (by decide))).trans (result_v m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.HostSides

end
-- ==== Proof.lean ====
/-
  The fused query/key/value projection: a tiled kernel against one contraction, equal on the extended reals.

  Both programs take `x` [4, 4096, 2048] and a stacked weight `W` [6144, 2048] and return three arrays
  [4, 16, 4096, 128] (batch, head, position, head coordinate). Each returns, as result `j` at (b, h, s, d), the inner
  product over the 2048 input features

      ∑ k, x (b, s, k) * W (j * 2048 + h * 128 + d, k)          (`Cert.Qkv.heads j x W`, QkvSpec.lean).

  The reference contracts once into [4, 4096, 6144], cuts the last axis in three, views 2048 columns as 16 × 128 and
  swaps the position and head axes (RefHeads.lean). The kernel program flattens batch and position into 16384 rows,
  and on a 3 × 32 grid multiplies a 512-row tile of the input with one whole 2048-row segment of the weight, views and
  swaps the product inside the tile, and writes it straight into its place in a [3, 4, 16, 4096, 128] array, which is
  then cut into the three results (Payload.lean: one tile's values; Blocks.lean: the tiles fill the array;
  HostSides.lean: the flattening before and the cut after). Every result element is the SAME sum of the same 2048
  products in both programs, term by term, so no law of arithmetic beyond rewriting indices is used and the finiteness
  of the inputs is not needed for the equality. A change of float format keeps every value on the extended reals, and
  the idealized kernel is the kernel's own text (no rewrite was applied), so `preserves` has nothing to state.
-/
import proofs.«132882_j1039382086403_2_alg».proof.Defs
import proofs.«132882_j1039382086403_2_alg».proof.Proof.Gen.Kernel
import proofs.«132882_j1039382086403_2_alg».proof.Proof.Gen.Kernel.Skeleton
import proofs.«132882_j1039382086403_2_alg».proof.Proof.Gen.Kernel.Launch
import proofs.«132882_j1039382086403_2_alg».proof.Proof.Gen.Kernel.Points
import proofs.«132882_j1039382086403_2_alg».proof.Proof.Gen.Kernel.Frame
import proofs.«132882_j1039382086403_2_alg».proof.Proof.Gen.KernelIdeal
import proofs.«132882_j1039382086403_2_alg».proof.Proof.Gen.KernelIdeal.Skeleton
import proofs.«132882_j1039382086403_2_alg».proof.Proof.Gen.KernelIdeal.Launch
import proofs.«132882_j1039382086403_2_alg».proof.Proof.Gen.KernelIdeal.Points
import proofs.«132882_j1039382086403_2_alg».proof.Proof.Gen.KernelIdeal.Frame
import proofs.«132882_j1039382086403_2_alg».proof.Proof.Gen.ReferenceIdeal
import proofs.«132882_j1039382086403_2_alg».proof.Proof.Gen.ReferenceIdeal.Run
import proofs.«132882_j1039382086403_2_alg».proof.Proof.Gen.ReferenceIdeal.Read
import proofs.«132882_j1039382086403_2_alg».proof.Proof.Gen.Pre_finite_inputs
import proofs.«132882_j1039382086403_2_alg».proof.Proof.RefHeads
import proofs.«132882_j1039382086403_2_alg».proof.Proof.HostSides
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- And the reference: its run with the results dropped. -/
theorem frame_reference : Cert.frame_ReferenceIdeal := fun m ρ _ =>
  (θ_run Cert.ReferenceIdeal.defs _ _).mono (fun _ h c => ⟨(h c).2.2.2.1, (h c).2.2.2.2⟩)
    (Cert.ReferenceIdeal.Value.run (F := Ideal) m ρ)

/-- The idealization rewrote nothing. -/
theorem preserves : Cert.preserves_Kernel_KernelIdeal := trivial

/-- Both programs end with result `j` at `heads j` of arguments that agree. -/
theorem algebraic : Cert.algebraic_KernelIdeal_ReferenceIdeal := by
  intro m ρ m' ρ' _ hagree
  refine ⟨_, _, _, Cert.KernelIdeal.HostSides.run m ρ, ?_⟩
  refine (θ_run Cert.ReferenceIdeal.defs _ _).mono (fun _ h c => ?_) (Cert.ReferenceIdeal.Value.run (F := Ideal) m' ρ')
  obtain ⟨hq, hk, hv, ha0, ha1⟩ := h c
  refine ⟨hq.trans ?_, hk.trans ?_, hv.trans ?_, ha0, ha1⟩
  · rw [Cert.ReferenceIdeal.Read.val_main_v5_eq, Cert.ReferenceIdeal.RefHeads.val_q, (hagree c).1, (hagree c).2]
  · rw [Cert.ReferenceIdeal.Read.val_main_v7_eq, Cert.ReferenceIdeal.RefHeads.val_k, (hagree c).1, (hagree c).2]
  · rw [Cert.ReferenceIdeal.Read.val_main_v9_eq, Cert.ReferenceIdeal.RefHeads.val_v, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
